-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x2048x2048 : Shape := ⟨4, ![4, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x1x2048x2048 32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S1x1x256x64 : Shape := ⟨4, ![1, 1, 256, 64]⟩
abbrev S1x1x2048x64 : Shape := ⟨4, ![1, 1, 2048, 64]⟩
abbrev S1x1x256x2048 : Shape := ⟨4, ![1, 1, 256, 2048]⟩
abbrev S256x64 : Shape := ⟨2, ![256, 64]⟩
abbrev S2048x64 : Shape := ⟨2, ![2048, 64]⟩
abbrev S256x2048 : Shape := ⟨2, ![256, 2048]⟩

abbrev nBuf : Space → Nat
  | .hbm => 6
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i32⟩
  | .hbm, ⟨4, _⟩ => ⟨S4x16x2048x2048, .f32⟩
  | .hbm, ⟨5, _⟩ => ⟨S4x16x2048x64, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x256x2048, .i32⟩
  | .local _ .vmem, ⟨7, _⟩ => ⟨S1x1x256x2048, .i32⟩
  | .local _ .vmem, ⟨8, _⟩ => ⟨S1x1x256x2048, .f32⟩
  | .local _ .vmem, ⟨9, _⟩ => ⟨S1x1x256x2048, .f32⟩
  | .local _ .vmem, ⟨10, _⟩ => ⟨S1x1x256x64, .f32⟩
  | .local _ .vmem, ⟨11, _⟩ => ⟨S1x1x256x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  bitsLt_bf16_f32 : FTy.bits .bf16 < FTy.bits .f32
  shapeCasts_S256x2048_S1x1x256x2048 : S256x2048.ShapeCasts S1x1x256x2048
  shapeCasts_S256x64_S1x1x256x64 : S256x64.ShapeCasts S1x1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S4x16x2048x64.size a
  hwx0_0 : ∀ i : grid0.Coords, EltTy.bits .f32 = 32 ∨ (Rect.block (s := S4x16x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S4x1x2048x2048.size a
  hwx0_3 : ∀ i : grid0.Coords, EltTy.bits .i32 = 32 ∨ (Rect.block (s := S4x1x2048x2048) S1x1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x2048.size a ≤ S4x16x2048x2048.size a
  hwx0_4 : ∀ i : grid0.Coords, EltTy.bits .f32 = 32 ∨ (Rect.block (s := S4x16x2048x2048) S1x1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x64.size a ≤ S4x16x2048x64.size a
  hwx0_5 : ∀ i : grid0.Coords, EltTy.bits .f32 = 32 ∨ (Rect.block (s := S4x16x2048x64) S1x1x256x64.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x2048x2048 : Shape := ⟨4, ![4, 1, 2048, 2048]⟩
abbrev S_ : Shape := ⟨0, ![]⟩
abbrev S4x16x2048x2048 : Shape := ⟨4, ![4, 16, 2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i32⟩
  | .hbm, ⟨4, _⟩ => ⟨S_, .f32⟩
  | .hbm, ⟨5, _⟩ => ⟨S4x16x2048x64, .f32⟩
  | .hbm, ⟨6, _⟩ => ⟨S4x16x2048x64, .f32⟩
  | .hbm, ⟨7, _⟩ => ⟨S4x16x2048x2048, .f32⟩
  | .hbm, ⟨8, _⟩ => ⟨S_, .i32⟩
  | .hbm, ⟨9, _⟩ => ⟨S4x1x2048x2048, .i32⟩
  | .hbm, ⟨10, _⟩ => ⟨S4x1x2048x2048, .i1⟩
  | .hbm, ⟨11, _⟩ => ⟨S_, .f32⟩
  | .hbm, ⟨12, _⟩ => ⟨S_, .f32⟩
  | .hbm, ⟨13, _⟩ => ⟨S4x16x2048x2048, .i1⟩
  | .hbm, ⟨14, _⟩ => ⟨S4x16x2048x2048, .f32⟩
  | .hbm, ⟨15, _⟩ => ⟨S4x16x2048x2048, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048x2048, .f32⟩
  | .hbm, ⟨20, _⟩ => ⟨S4x16x2048x2048, .f32⟩
  | .hbm, ⟨21, _⟩ => ⟨S_, .f32⟩
  | .hbm, ⟨22, _⟩ => ⟨S4x16x2048x2048, .f32⟩
  | .hbm, ⟨23, _⟩ => ⟨S4x16x2048x2048, .f32⟩
  | .hbm, ⟨24, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  bcast_S_S4x16x2048x64 : S_.BroadcastsInDim S4x16x2048x64 (![] : Fin 0 → Fin S4x16x2048x64.rank)
  bcast_S_S4x1x2048x2048 : S_.BroadcastsInDim S4x1x2048x2048 (![] : Fin 0 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  bcast_S_S4x16x2048x2048 : S_.BroadcastsInDim S4x16x2048x2048 (![] : Fin 0 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttnScalars.lean ====
/-
  The scalar facts of sigmoid attention at the extended reals.

  Three float words are read as the reals they denote: 0.125 is 1/8, 8.0 is 8, 1.0 is 1.  Two laws follow.
  Scaling a query entry by the word 0.125 is dividing it by the word 8.0 — on EVERY extended real, the infinities
  included, because division by a nonzero real is multiplication by its reciprocal there.  And the quotient
  1 / (1 + exp (-x)) written out with the word 1.0 is the logistic function of x.
-/
import Idealize.ShloMosaic.PureOps.Ideal

noncomputable section

namespace Cert.Attn

open Idealize.ShloMosaic

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- The word of 8.0 denotes the real 8. -/
theorem ofBits_eight : Ideal.ofBits .f32 0x41000000#32 = ((8 : ℝ) : EReal) := by
  simp [Ideal.ofBits, Ideal.ieee, -EReal.coe_mul]; norm_num

/-- The word of 1.0 denotes 1. -/
theorem ofBits_one : Ideal.ofBits .f32 0x3F800000#32 = 1 := by
  simp [Ideal.ofBits, Ideal.ieee, -EReal.coe_mul]; norm_num

/-- Dividing by 8 is multiplying by 1/8, for every extended real. -/
theorem div_eight_eq_mul_eighth (x : EReal) :
    Ideal.div x (Ideal.ofBits .f32 0x41000000#32) = x * Ideal.ofBits .f32 0x3E000000#32 := by
  rw [ofBits_eight, ofBits_eighth, Ideal.div_coe (by norm_num : (8 : ℝ) ≠ 0)]

/-- The quotient 1 / (1 + exp (-x)), its ones spelt as the word 1.0, is the logistic function. -/
theorem one_div_one_add_exp_neg (x : EReal) :
    Ideal.div (Ideal.ofBits .f32 0x3F800000#32) (Ideal.ofBits .f32 0x3F800000#32 + Ideal.exp (-x)) = Ideal.logistic x := by
  rw [ofBits_one]; rfl

end Cert.Attn

end
-- ==== Proof.AttnSpec.lean ====
/-
  Sigmoid attention as ONE function of the argument arrays, index by index.

  There are 4 batches and 16 heads; each head has 2048 query rows, 2048 key rows and 2048 value rows of 64 lanes.
  The mask has one 2048 x 2048 table per batch, shared by that batch's heads.

    score b h q k  = sum over lanes d of (Q[b,h,q,d] * 1/8) * K[b,h,k,d]
    weight b h q k = logistic (if mask[b,0,q,k] = 0 then -1e9 else score b h q k)
    attention      : the array of the weights, [4,16,2048,2048]
    attended       : out[b,h,q,d] = sum over key rows k of weight b h q k * V[b,h,k,d], [4,16,2048,64]

  There is no normalisation across a row's keys, so a query row's weights depend on that row of Q, on the head's
  whole K and on that row of the batch's mask table, and on nothing else.  Both programs compute these two arrays.
-/
import Idealize.ShloMosaic.PureOps.Ideal
import Idealize.ShloMosaic.Lib.ValueIdx

noncomputable section

namespace Cert.Attn

open Idealize.ShloMosaic Idealize.ShloMosaic.ValueIdx

/-- Queries, keys, values and the attended output: [batch, head, row, lane]. -/
abbrev Rows : Shape := ⟨4, ![4, 16, 2048, 64]⟩
/-- The mask: [batch, 1, query row, key row]. -/
abbrev MaskTab : Shape := ⟨4, ![4, 1, 2048, 2048]⟩
/-- The weights: [batch, head, query row, key row]. -/
abbrev Weights : Shape := ⟨4, ![4, 16, 2048, 2048]⟩

/-- The entry of a rows array at batch `b`, head `h`, row `r`, lane `d`. -/
abbrev rowsAt (b : Fin 4) (h : Fin 16) (r : Fin 2048) (d : Fin 64) : Rows.Idx := ix4 b h r d
/-- The entry of batch `b`'s mask table at query row `q`, key row `k`. -/
abbrev maskAt (b : Fin 4) (q k : Fin 2048) : MaskTab.Idx := ix4 b (0 : Fin 1) q k

/-- The entry of the weights array at batch `b`, head `h`, query row `q`, key row `k`. -/
abbrev weightsAt (b : Fin 4) (h : Fin 16) (q k : Fin 2048) : Weights.Idx := ix4 b h q k

/-- The scale 1/8 (one over the square root of the 64 lanes), as the word of 0.125. -/
abbrev eighth : EReal := Ideal.ofBits .f32 0x3E000000#32
/-- What a masked-out score is replaced by: the word of -1e9. -/
abbrev maskedOut : EReal := Ideal.ofBits .f32 0xCE6E6B28#32

/-- The score of query row `q` against key row `k` in head `(b, h)`: the scaled query row times the key row. -/
def score (Q K : FVec Ideal Rows .f32) (b : Fin 4) (h : Fin 16) (q k : Fin 2048) : EReal :=
  ∑ d : Fin 64, (Q (rowsAt b h q d) * eighth) * K (rowsAt b h k d)

/-- The weight query row `q` gives key row `k`: the logistic function of the score, or of -1e9 where the batch's mask
    table has a zero at `(q, k)`. -/
def weight (Q K : FVec Ideal Rows .f32) (M : IVec MaskTab 32) (b : Fin 4) (h : Fin 16) (q k : Fin 2048) : EReal :=
  Ideal.logistic (Scalar.select (IntOp.cmpi .eq (M (maskAt b q k)) 0#32) maskedOut (score Q K b h q k))

/-- The array of weights. -/
def attention (Q K : FVec Ideal Rows .f32) (M : IVec MaskTab 32) : FVec Ideal Weights .f32 :=
  fun i => weight Q K M (i 0) (i 1) (i 2) (i 3)

/-- The attended values: each query row's weights applied to the head's value rows. -/
def attended (Q K V : FVec Ideal Rows .f32) (M : IVec MaskTab 32) : FVec Ideal Rows .f32 :=
  fun i => ∑ k : Fin 2048, weight Q K M (i 0) (i 1) (i 2) k * V (rowsAt (i 0) (i 1) k (i 3))

end Cert.Attn

end
-- ==== Proof.AttnRef.lean ====
/-
  The reference computes the specification.

  Its weights array is, stage by stage: divide Q by 8; contract the lanes against K (a sum over the 64 lanes);
  replace the score by -1e9 where the mask, broadcast over the 16 heads, is zero; negate, exponentiate, add one,
  and divide one by that.  Read at an index this is the logistic function of the selected score, with the query
  entry divided by 8 where the specification multiplies it by 1/8 — one value on every extended real.  Its output
  contracts the weights' key axis against V: the sum over key rows of weight times value.
-/
import proofs.«127028_j13460427505966_1_alg».proof.Proof.Gen.ReferenceIdeal.Read
import proofs.«127028_j13460427505966_1_alg».proof.Proof.AttnScalars
import proofs.«127028_j13460427505966_1_alg».proof.Proof.AttnSpec

noncomputable section

namespace Cert.Attn

open Idealize.ShloMosaic Idealize.ShloMosaic.ValueIdx Cert.ReferenceIdeal Cert.ReferenceIdeal.Read

/-- The mask is read at the query's batch, its one table, the query row and the key row. -/
theorem maskIdx_eq (i : Weights.Idx) : idx_main_call0_v1 i = maskAt (i 0) (i 2) (i 3) :=
  funext fun a => Fin.ext (by match a with | ⟨0, _⟩ => rfl | ⟨1, _⟩ => rfl | ⟨2, _⟩ => rfl | ⟨3, _⟩ => rfl)

/-- The score's left factor is the query row at lane `d`. -/
theorem queryIdx_eq (i : Weights.Idx) (d : Fin 64) : lidx_main_v2 i d = rowsAt (i 0) (i 1) (i 2) d :=
  funext fun a => Fin.ext (by match a with | ⟨0, _⟩ => rfl | ⟨1, _⟩ => rfl | ⟨2, _⟩ => rfl | ⟨3, _⟩ => rfl)

/-- The score's right factor is the key row at lane `d`. -/
theorem keyIdx_eq (i : Weights.Idx) (d : Fin 64) : ridx_main_v2 i d = rowsAt (i 0) (i 1) (i 3) d :=
  funext fun a => Fin.ext (by match a with | ⟨0, _⟩ => rfl | ⟨1, _⟩ => rfl | ⟨2, _⟩ => rfl | ⟨3, _⟩ => rfl)

/-- The reference's weights array is the specification's. -/
theorem ref_attention (Q K : FVec Ideal Rows .f32) (M : IVec MaskTab 32) :
    val_main_v11 (F := Ideal) Q K M = attention Q K M := by
  funext i
  rw [val_main_v11_apply, val_main_v10_apply, val_main_cst_2_apply, val_main_v9_apply, val_main_v8_apply,
    val_main_cst_1_apply, val_main_v7_apply, val_main_v6_apply, val_main_v5_apply, val_main_call0_v1_apply,
    val_main_v4_apply, val_main_v3_apply, val_main_c_apply, val_main_call0_v2_apply, val_main_call0_v0_apply,
    val_main_cst_0_apply, val_main_v2_apply]
  simp only [maskIdx_eq, queryIdx_eq, keyIdx_eq,
    Ideal.ofBits_def, Ideal.hostDivf_def, Ideal.addf_def, Ideal.hostUnary_exp_def, Ideal.hostNegf_def, Ideal.negf_def,
    one_div_one_add_exp_neg]
  show _ = Ideal.logistic (Scalar.select (IntOp.cmpi .eq (M (maskAt (i 0) (i 2) (i 3))) 0#32) maskedOut
    (∑ d : Fin 64, (Q (rowsAt (i 0) (i 1) (i 2) d) * eighth) * K (rowsAt (i 0) (i 1) (i 3) d)))
  refine congrArg (fun s => Ideal.logistic (Scalar.select _ maskedOut s)) (Finset.sum_congr rfl fun d _ => ?_)
  rw [val_main_v1_apply, val_main_v0_apply, val_main_cst_apply]
  exact congrArg (· * K (rowsAt (i 0) (i 1) (i 3) d)) (div_eight_eq_mul_eighth (Q (rowsAt (i 0) (i 1) (i 2) d)))

/-- The output's left factor is the weight of key row `k`. -/
theorem weightIdx_eq (i : Rows.Idx) (k : Fin 2048) : lidx_main_v12 i k = weightsAt (i 0) (i 1) (i 2) k :=
  funext fun a => Fin.ext (by match a with | ⟨0, _⟩ => rfl | ⟨1, _⟩ => rfl | ⟨2, _⟩ => rfl | ⟨3, _⟩ => rfl)

/-- The output's right factor is value row `k` at the output's lane. -/
theorem valueIdx_eq (i : Rows.Idx) (k : Fin 2048) : ridx_main_v12 i k = rowsAt (i 0) (i 1) k (i 3) :=
  funext fun a => Fin.ext (by match a with | ⟨0, _⟩ => rfl | ⟨1, _⟩ => rfl | ⟨2, _⟩ => rfl | ⟨3, _⟩ => rfl)

/-- The reference's output array is the specification's. -/
theorem ref_attended (Q K V : FVec Ideal Rows .f32) (M : IVec MaskTab 32) :
    val_main_v12 (F := Ideal) Q K V M = attended Q K V M := by
  funext i
  rw [val_main_v12_apply, ref_attention]
  simp only [weightIdx_eq, valueIdx_eq]
  rfl

end Cert.Attn

end
-- ==== Proof.AttnBody.lean ====
/-
  What the kernel body computes at one grid point, read index by index.

  At a point the body holds a block of 256 query rows [1,1,256,64], the head's whole keys and values
  [1,1,2048,64] each, and the 256 matching rows of the batch's mask table [1,1,256,2048].  It drops the two unit
  axes, scales the query block by 1/8, multiplies it against the keys contracting the 64 lanes (into a zero
  accumulator: just the sum), replaces masked-out scores, and applies the logistic function: the block's weights,
  [256,2048].  A second product contracts the weights' 2048 key rows against the values: the block's output,
  [256,64].  Narrowing to bf16 before each product is the identity on extended reals.
-/
import proofs.«127028_j13460427505966_1_alg».proof.Proof.Gen.KernelIdeal.Skeleton
import proofs.«127028_j13460427505966_1_alg».proof.Proof.AttnSpec
import Idealize.ShloMosaic.Lib.ValueIdx
import Idealize.ShloMosaic.Lib.Pipeline.Value
import Idealize.ShloMosaic.PureOps.Ideal.Laws

noncomputable section

namespace Cert.Attn

open Idealize.ShloMosaic Idealize.ShloMosaic.ValueIdx Cert.KernelIdeal Cert.KernelIdeal.Gen

/-! ## The unit axes dropped: a block [1,1,a,b] viewed [a,b] -/

/-- The query block viewed [256,64] reads the block at (0, 0, r, d). -/
theorem queryBlock_apply (P : Vec Ideal S1x1x256x64 .f32) (r : Fin 256) (d : Fin 64) :
    shapeCast S256x64 P shapeCasts_S1x1x256x64_S256x64 (ix2 r d) = P (ix4 (0 : Fin 1) (0 : Fin 1) r d) :=
  shapeCast_apply P _ (ix2 r d) (ix4 (0 : Fin 1) (0 : Fin 1) r d) (by
    rw [Shape.rowMajor_val_four, Shape.rowMajor_val_two]
    show ((0 * 1 + 0) * 256 + r.val) * 64 + d.val = r.val * 64 + d.val
    omega)

/-- A keys or values block viewed [2048,64] reads the block at (0, 0, k, d). -/
theorem keyBlock_apply (P : Vec Ideal S1x1x2048x64 .f32) (k : Fin 2048) (d : Fin 64) :
    shapeCast S2048x64 P shapeCasts_S1x1x2048x64_S2048x64 (ix2 k d) = P (ix4 (0 : Fin 1) (0 : Fin 1) k d) :=
  shapeCast_apply P _ (ix2 k d) (ix4 (0 : Fin 1) (0 : Fin 1) k d) (by
    rw [Shape.rowMajor_val_four, Shape.rowMajor_val_two]
    show ((0 * 1 + 0) * 2048 + k.val) * 64 + d.val = k.val * 64 + d.val
    omega)

/-- The mask block viewed [256,2048] reads the block at (0, 0, r, k). -/
theorem maskBlock_apply (P : Vec Ideal S1x1x256x2048 .i32) (r : Fin 256) (k : Fin 2048) :
    shapeCast S256x2048 P shapeCasts_S1x1x256x2048_S256x2048 (ix2 r k) = P (ix4 (0 : Fin 1) (0 : Fin 1) r k) :=
  shapeCast_apply P _ (ix2 r k) (ix4 (0 : Fin 1) (0 : Fin 1) r k) (by
    rw [Shape.rowMajor_val_four, Shape.rowMajor_val_two]
    show ((0 * 1 + 0) * 256 + r.val) * 2048 + k.val = r.val * 2048 + k.val
    omega)

/-! ## The two products' operand indices -/

local notation "QK" => dot_S256x64_S2048x64_S256x2048_1_1_0_0_n_n
local notation "WV" => dot_S256x2048_S2048x64_S256x64_1_0_0_1_n_n

/-- Scores: the left operand is read at the output's row and the contracted lane. -/
theorem scoreLhs_eq (r : Fin 256) (k : Fin 2048) (d : Fin 64) :
    DotDims.lhsIdx QK (ix2 r k) ((contrEquiv1 QK 64 rfl rfl).symm d) = ix2 r d := by
  have hd := contrEquiv1_symm_val QK 64 rfl rfl d
  refine funext fun a => Fin.ext ?_
  match a with
  | ⟨0, _⟩ =>
    show (DotDims.lhsIdx QK (ix2 r k) _ 0).val = r.val
    unfold DotDims.lhsIdx
    rw [dif_neg (show ¬(0 : Fin S256x64.rank) ∈ DotDims.lhsBatch QK by decide),
      dif_pos (show (0 : Fin S256x64.rank) ∈ DotDims.lhsNonContracting QK by decide)]
    rfl
  | ⟨1, _⟩ => exact (DotDims.lhsIdx_val_of_single QK rfl (ix2 r k) _).trans hd

/-- Scores: the right operand is read at the output's column (a key row) and the contracted lane. -/
theorem scoreRhs_eq (r : Fin 256) (k : Fin 2048) (d : Fin 64) :
    DotDims.rhsIdx QK (ix2 r k) ((contrEquiv1 QK 64 rfl rfl).symm d) = ix2 k d := by
  have hd := contrEquiv1_symm_val QK 64 rfl rfl d
  refine funext fun a => Fin.ext ?_
  match a with
  | ⟨0, _⟩ =>
    show (DotDims.rhsIdx QK (ix2 r k) _ 0).val = k.val
    unfold DotDims.rhsIdx
    rw [dif_neg (show ¬(0 : Fin S2048x64.rank) ∈ DotDims.rhsBatch QK by decide),
      dif_pos (show (0 : Fin S2048x64.rank) ∈ DotDims.rhsNonContracting QK by decide)]
    rfl
  | ⟨1, _⟩ => exact (DotDims.rhsIdx_val_of_single QK rfl (ix2 r k) _).trans hd

/-- Output: the left operand (the weights) is read at the output's row and the contracted key row. -/
theorem outLhs_eq (r : Fin 256) (d : Fin 64) (k : Fin 2048) :
    DotDims.lhsIdx WV (ix2 r d) ((contrEquiv1 WV 2048 rfl rfl).symm k) = ix2 r k := by
  have hk := contrEquiv1_symm_val WV 2048 rfl rfl k
  refine funext fun a => Fin.ext ?_
  match a with
  | ⟨0, _⟩ =>
    show (DotDims.lhsIdx WV (ix2 r d) _ 0).val = r.val
    unfold DotDims.lhsIdx
    rw [dif_neg (show ¬(0 : Fin S256x2048.rank) ∈ DotDims.lhsBatch WV by decide),
      dif_pos (show (0 : Fin S256x2048.rank) ∈ DotDims.lhsNonContracting WV by decide)]
    rfl
  | ⟨1, _⟩ => exact (DotDims.lhsIdx_val_of_single WV rfl (ix2 r d) _).trans hk

/-- Output: the right operand (the values) is read at the contracted key row and the output's lane. -/
theorem outRhs_eq (r : Fin 256) (d : Fin 64) (k : Fin 2048) :
    DotDims.rhsIdx WV (ix2 r d) ((contrEquiv1 WV 2048 rfl rfl).symm k) = ix2 k d := by
  have hk := contrEquiv1_symm_val WV 2048 rfl rfl k
  refine funext fun a => Fin.ext ?_
  match a with
  | ⟨0, _⟩ => exact (DotDims.rhsIdx_val_of_single WV rfl (ix2 r d) _).trans hk
  | ⟨1, _⟩ =>
    show (DotDims.rhsIdx WV (ix2 r d) _ 1).val = d.val
    unfold DotDims.rhsIdx
    rw [dif_neg (show ¬(1 : Fin S2048x64.rank) ∈ DotDims.rhsBatch WV by decide),
      dif_pos (show (1 : Fin S2048x64.rank) ∈ DotDims.rhsNonContracting WV by decide)]
    rfl

/-! ## The block's weights and output at an index -/

/-- The block's weight at row `r`, key row `k`: the logistic function of the scaled query row against the key row,
    or of -1e9 where the mask block has a zero there. -/
theorem blockWeight_apply (P0 : Vec Ideal S1x1x256x64 .f32) (P1 : Vec Ideal S1x1x2048x64 .f32)
    (P3 : Vec Ideal S1x1x256x2048 .i32) (r : Fin 256) (k : Fin 2048) :
    k0_pay1 (F := Ideal) P0 P1 P3 (ix2 r k)
      = Ideal.logistic (Scalar.select (IntOp.cmpi .eq (P3 (ix4 (0 : Fin 1) (0 : Fin 1) r k)) 0#32) maskedOut
          (∑ d : Fin 64, (P0 (ix4 (0 : Fin 1) (0 : Fin 1) r d) * eighth) * P1 (ix4 (0 : Fin 1) (0 : Fin 1) k d))) := by
  unfold k0_pay1
  simp only [logistic, select, cmpi, broadcast, truncf, mulf]
  rw [maskBlock_apply]
  refine congrArg (fun s => Ideal.logistic (Scalar.select (IntOp.cmpi .eq (P3 (ix4 (0 : Fin 1) (0 : Fin 1) r k)) 0#32) maskedOut s)) ?_
  refine (Ideal.matmul_constant_zero_apply QK none _ _ (ix2 r k)).trans ?_
  rw [← Equiv.sum_comp (contrEquiv1 QK 64 rfl rfl).symm]
  refine Finset.sum_congr rfl fun d _ => ?_
  rw [scoreLhs_eq, scoreRhs_eq]
  show (shapeCast S256x64 P0 shapeCasts_S1x1x256x64_S256x64 (ix2 r d) * eighth)
      * shapeCast S2048x64 P1 shapeCasts_S1x1x2048x64_S2048x64 (ix2 k d) = _
  rw [queryBlock_apply, keyBlock_apply]

/-- The weights as stored, [1,1,256,2048], read at (0, 0, r, k), are the block's weight at (r, k). -/
theorem blockStored_apply (P0 : Vec Ideal S1x1x256x64 .f32) (P1 : Vec Ideal S1x1x2048x64 .f32)
    (P3 : Vec Ideal S1x1x256x2048 .i32) (r : Fin 256) (k : Fin 2048) :
    k0_pay2 (F := Ideal) P0 P1 P3 (ix4 (0 : Fin 1) (0 : Fin 1) r k) = k0_pay1 (F := Ideal) P0 P1 P3 (ix2 r k) := by
  unfold k0_pay2
  exact shapeCast_apply _ shapeCasts_S256x2048_S1x1x256x2048 (ix4 (0 : Fin 1) (0 : Fin 1) r k) (ix2 r k) (by
    rw [Shape.rowMajor_val_two, Shape.rowMajor_val_four]
    show r.val * 2048 + k.val = ((0 * 1 + 0) * 256 + r.val) * 2048 + k.val
    omega)

/-- The block's output at row `r`, lane `d`: the row's weights applied to the values block. -/
theorem blockOut_apply (P0 : Vec Ideal S1x1x256x64 .f32) (P1 P2 : Vec Ideal S1x1x2048x64 .f32)
    (P3 : Vec Ideal S1x1x256x2048 .i32) (r : Fin 256) (d : Fin 64) :
    k0_pay3 (F := Ideal) P0 P1 P2 P3 (ix4 (0 : Fin 1) (0 : Fin 1) r d)
      = ∑ k : Fin 2048, k0_pay1 (F := Ideal) P0 P1 P3 (ix2 r k) * P2 (ix4 (0 : Fin 1) (0 : Fin 1) k d) := by
  unfold k0_pay3
  refine (shapeCast_apply _ shapeCasts_S256x64_S1x1x256x64 (ix4 (0 : Fin 1) (0 : Fin 1) r d) (ix2 r d) (by
    rw [Shape.rowMajor_val_two, Shape.rowMajor_val_four]
    show r.val * 64 + d.val = ((0 * 1 + 0) * 256 + r.val) * 64 + d.val
    omega)).trans ?_
  refine (Ideal.matmul_constant_zero_apply WV none _ _ (ix2 r d)).trans ?_
  rw [← Equiv.sum_comp (contrEquiv1 WV 2048 rfl rfl).symm]
  refine Finset.sum_congr rfl fun k _ => ?_
  rw [outLhs_eq, outRhs_eq]
  show k0_pay1 (F := Ideal) P0 P1 P3 (ix2 r k) * shapeCast S2048x64 P2 shapeCasts_S1x1x2048x64_S2048x64 (ix2 k d) = _
  rw [keyBlock_apply]

end Cert.Attn

end
-- ==== Proof.AttnGrid.lean ====
/-
  Which block each window holds at a grid point.

  The grid is 4 batches x 16 heads x 8 query tiles, run last axis fastest, so point number t is batch t / 128,
  head t / 8 mod 16, query tile t mod 8.  The query block, the weights block and the output block sit at
  (batch, head, tile, 0); the keys and values blocks at (batch, head, 0, 0), the whole head, whatever the tile;
  the mask block at (batch, 0, tile, 0), whatever the head.  Each is decided once over the 512 points.
-/
import proofs.«127028_j13460427505966_1_alg».proof.Proof.Gen.KernelIdeal.Launch

noncomputable section

namespace Cert.Attn

open Idealize.ShloMosaic Cert.KernelIdeal Cert.KernelIdeal.Gen

/-- A point's number is below 512. -/
theorem point_lt (t : Fin cfg0.N) : t.val < 512 := lt_of_lt_of_eq t.isLt N_0

/-- The query block of point `t`. -/
theorem queryBlockIdx : ∀ t : Fin cfg0.N, win0_0.index t (0 : Fin 4) = t.val / 128 ∧ win0_0.index t (1 : Fin 4) = t.val / 8 % 16
    ∧ win0_0.index t (2 : Fin 4) = t.val % 8 ∧ win0_0.index t (3 : Fin 4) = 0 :=
  (by decide +kernel : ∀ t : Fin grid0.N, _)

/-- The keys block of point `t`: the head's whole keys. -/
theorem keysBlockIdx : ∀ t : Fin cfg0.N, win0_1.index t (0 : Fin 4) = t.val / 128 ∧ win0_1.index t (1 : Fin 4) = t.val / 8 % 16
    ∧ win0_1.index t (2 : Fin 4) = 0 ∧ win0_1.index t (3 : Fin 4) = 0 :=
  (by decide +kernel : ∀ t : Fin grid0.N, _)

/-- The values block of point `t`: the head's whole values. -/
theorem valuesBlockIdx : ∀ t : Fin cfg0.N, win0_2.index t (0 : Fin 4) = t.val / 128 ∧ win0_2.index t (1 : Fin 4) = t.val / 8 % 16
    ∧ win0_2.index t (2 : Fin 4) = 0 ∧ win0_2.index t (3 : Fin 4) = 0 :=
  (by decide +kernel : ∀ t : Fin grid0.N, _)

/-- The mask block of point `t`: the tile's rows of the batch's one table. -/
theorem maskBlockIdx : ∀ t : Fin cfg0.N, win0_3.index t (0 : Fin 4) = t.val / 128 ∧ win0_3.index t (1 : Fin 4) = 0
    ∧ win0_3.index t (2 : Fin 4) = t.val % 8 ∧ win0_3.index t (3 : Fin 4) = 0 :=
  (by decide +kernel : ∀ t : Fin grid0.N, _)

/-- The weights block of point `t`. -/
theorem weightsBlockIdx : ∀ t : Fin cfg0.N, win0_4.index t (0 : Fin 4) = t.val / 128 ∧ win0_4.index t (1 : Fin 4) = t.val / 8 % 16
    ∧ win0_4.index t (2 : Fin 4) = t.val % 8 ∧ win0_4.index t (3 : Fin 4) = 0 :=
  (by decide +kernel : ∀ t : Fin grid0.N, _)

/-- The output block of point `t`. -/
theorem outBlockIdx : ∀ t : Fin cfg0.N, win0_5.index t (0 : Fin 4) = t.val / 128 ∧ win0_5.index t (1 : Fin 4) = t.val / 8 % 16
    ∧ win0_5.index t (2 : Fin 4) = t.val % 8 ∧ win0_5.index t (3 : Fin 4) = 0 :=
  (by decide +kernel : ∀ t : Fin grid0.N, _)

end Cert.Attn

end
-- ==== Proof.AttnBlocks.lean ====
/-
  From blocks to whole arrays.

  Point t works on batch t / 128, head t / 8 mod 16 and query tile t mod 8: its query, mask, weights and output
  blocks hold the array rows tile * 256 + r for r below 256, and its keys and values blocks the head's whole 2048
  rows.  So what the body leaves at point t is that tile of the specification's arrays: the weights block is the
  tile's rows of `attention`, the output block the tile's rows of `attended`.  Every index of either array lies in
  exactly such a tile — of the point numbered batch * 128 + head * 8 + row / 256 — so after the run the two arrays
  ARE `attention` and `attended` of the argument arrays.
-/
import proofs.«127028_j13460427505966_1_alg».proof.Proof.Gen.KernelIdeal.Value
import proofs.«127028_j13460427505966_1_alg».proof.Proof.AttnSpec
import proofs.«127028_j13460427505966_1_alg».proof.Proof.AttnBody
import proofs.«127028_j13460427505966_1_alg».proof.Proof.AttnGrid
import Idealize.ShloMosaic.Lib.Pipeline.Value

noncomputable section

namespace Cert.Attn

open Idealize.ShloMosaic Idealize.ShloMosaic.TcCoe Idealize.ShloMosaic.ValueIdx Idealize.SL.Sem
open Cert.KernelIdeal Cert.KernelIdeal.Gen
open Idealize.ShloMosaic.Pipeline (Dat)

/-! ## One point, over variables: blocks that hold a tile's rows give that tile of the specification -/

/-- If the query and mask blocks hold rows `q r` of head `(b, h)` and the keys block the head's keys, the block's
    weights are the specification's weights of those rows. -/
theorem pointWeights (Q K : FVec Ideal Rows .f32) (M : IVec MaskTab 32)
    (P0 : Vec Ideal S1x1x256x64 .f32) (P1 : Vec Ideal S1x1x2048x64 .f32) (P3 : Vec Ideal S1x1x256x2048 .i32)
    (b : Fin 4) (h : Fin 16) (q : Fin 256 → Fin 2048)
    (h0 : ∀ (r : Fin 256) (d : Fin 64), P0 (ix4 (0 : Fin 1) (0 : Fin 1) r d) = Q (rowsAt b h (q r) d))
    (h1 : ∀ (k : Fin 2048) (d : Fin 64), P1 (ix4 (0 : Fin 1) (0 : Fin 1) k d) = K (rowsAt b h k d))
    (h3 : ∀ (r : Fin 256) (k : Fin 2048), P3 (ix4 (0 : Fin 1) (0 : Fin 1) r k) = M (maskAt b (q r) k))
    (r : Fin 256) (k : Fin 2048) :
    k0_pay1 (F := Ideal) P0 P1 P3 (ix2 r k) = weight Q K M b h (q r) k := by
  rw [blockWeight_apply]
  unfold weight score
  simp only [h0, h1, h3]

/-- And, the values block holding the head's values, the block's output is the specification's output at those rows. -/
theorem pointOut (Q K V : FVec Ideal Rows .f32) (M : IVec MaskTab 32)
    (P0 : Vec Ideal S1x1x256x64 .f32) (P1 P2 : Vec Ideal S1x1x2048x64 .f32) (P3 : Vec Ideal S1x1x256x2048 .i32)
    (b : Fin 4) (h : Fin 16) (q : Fin 256 → Fin 2048)
    (h0 : ∀ (r : Fin 256) (d : Fin 64), P0 (ix4 (0 : Fin 1) (0 : Fin 1) r d) = Q (rowsAt b h (q r) d))
    (h1 : ∀ (k : Fin 2048) (d : Fin 64), P1 (ix4 (0 : Fin 1) (0 : Fin 1) k d) = K (rowsAt b h k d))
    (h2 : ∀ (k : Fin 2048) (d : Fin 64), P2 (ix4 (0 : Fin 1) (0 : Fin 1) k d) = V (rowsAt b h k d))
    (h3 : ∀ (r : Fin 256) (k : Fin 2048), P3 (ix4 (0 : Fin 1) (0 : Fin 1) r k) = M (maskAt b (q r) k))
    (r : Fin 256) (d : Fin 64) :
    k0_pay3 (F := Ideal) P0 P1 P2 P3 (ix4 (0 : Fin 1) (0 : Fin 1) r d) = attended Q K V M (rowsAt b h (q r) d) := by
  rw [blockOut_apply]
  show _ = ∑ k : Fin 2048, weight Q K M b h (q r) k * V (rowsAt b h k d)
  refine Finset.sum_congr rfl fun k _ => ?_
  rw [pointWeights Q K M P0 P1 P3 b h q h0 h1 h3 r k, h2]

/-- A stored weights block that agrees with an array `A` through a placement `e` at every (0, 0, r, k) agrees at
    every index: the two leading axes have one position. -/
theorem storedWeights_eq (A : FVec Ideal Weights .f32) (P0 : Vec Ideal S1x1x256x64 .f32) (P1 : Vec Ideal S1x1x2048x64 .f32)
    (P3 : Vec Ideal S1x1x256x2048 .i32) (e : S1x1x256x2048.Idx → Weights.Idx)
    (hpt : ∀ (r : Fin 256) (k : Fin 2048), k0_pay1 (F := Ideal) P0 P1 P3 (ix2 r k) = A (e (ix4 (0 : Fin 1) (0 : Fin 1) r k)))
    (j : S1x1x256x2048.Idx) : k0_pay2 (F := Ideal) P0 P1 P3 j = A (e j) := by
  obtain ⟨r, k, rfl⟩ : ∃ (r : Fin 256) (k : Fin 2048), j = ix4 (0 : Fin 1) (0 : Fin 1) r k :=
    ⟨j 2, j 3, funext fun a => Fin.ext (by
      match a with
      | ⟨0, _⟩ => have h : (j 0).val < 1 := (j 0).isLt; show (j 0).val = 0; omega
      | ⟨1, _⟩ => have h : (j 1).val < 1 := (j 1).isLt; show (j 1).val = 0; omega
      | ⟨2, _⟩ => rfl
      | ⟨3, _⟩ => rfl)⟩
  rw [blockStored_apply, hpt]

/-- The same for a stored output block. -/
theorem storedOut_eq (A : FVec Ideal Rows .f32) (P0 : Vec Ideal S1x1x256x64 .f32) (P1 P2 : Vec Ideal S1x1x2048x64 .f32)
    (P3 : Vec Ideal S1x1x256x2048 .i32) (e : S1x1x256x64.Idx → Rows.Idx)
    (hpt : ∀ (r : Fin 256) (d : Fin 64), k0_pay3 (F := Ideal) P0 P1 P2 P3 (ix4 (0 : Fin 1) (0 : Fin 1) r d) = A (e (ix4 (0 : Fin 1) (0 : Fin 1) r d)))
    (j : S1x1x256x64.Idx) : k0_pay3 (F := Ideal) P0 P1 P2 P3 j = A (e j) := by
  obtain ⟨r, d, rfl⟩ : ∃ (r : Fin 256) (d : Fin 64), j = ix4 (0 : Fin 1) (0 : Fin 1) r d :=
    ⟨j 2, j 3, funext fun a => Fin.ext (by
      match a with
      | ⟨0, _⟩ => have h : (j 0).val < 1 := (j 0).isLt; show (j 0).val = 0; omega
      | ⟨1, _⟩ => have h : (j 1).val < 1 := (j 1).isLt; show (j 1).val = 0; omega
      | ⟨2, _⟩ => rfl
      | ⟨3, _⟩ => rfl)⟩
  exact hpt r d

/-! ## The point's batch, head and rows -/

/-- The batch point `t` works on. -/
def pointBatch (t : Fin cfg0.N) : Fin 4 := ⟨t.val / 128, by have := point_lt t; omega⟩
/-- The head point `t` works on. -/
def pointHead (t : Fin cfg0.N) : Fin 16 := ⟨t.val / 8 % 16, Nat.mod_lt _ (by decide)⟩
/-- The array row that row `r` of point `t`'s query tile is. -/
def tileRow (t : Fin cfg0.N) (r : Fin 256) : Fin 2048 := ⟨t.val % 8 * 256 + r.val, by have := r.isLt; omega⟩

variable (m : (ℓ : Loc nD τ sig) → Buf (Elt Ideal) ℓ) (ρ : Dev nD → PrngReg)

/-! ## What each input block holds -/

/-- The query block holds the tile's rows of the head's queries. -/
theorem queryBlock_read (c : Dev nD) (t : Fin cfg0.N) (r : Fin 256) (d : Fin 64) :
    iblk m c 0 t (ix4 (0 : Fin 1) (0 : Fin 1) r d) = V m c main_arg0 (rowsAt (pointBatch t) (pointHead t) (tileRow t r) d) := by
  show V m c main_arg0 (((cfg0.win 0).blk t).view.emb (ix4 (0 : Fin 1) (0 : Fin 1) r d)) = _
  refine congrArg (V m c main_arg0) (funext fun a => Fin.ext ?_)
  obtain ⟨e0, e1, e2, e3⟩ := queryBlockIdx t
  match a with
  | ⟨0, _⟩ => show win0_0.index t (0 : Fin 4) * 1 + 1 * 0 = t.val / 128; omega
  | ⟨1, _⟩ => show win0_0.index t (1 : Fin 4) * 1 + 1 * 0 = t.val / 8 % 16; omega
  | ⟨2, _⟩ => show win0_0.index t (2 : Fin 4) * 256 + 1 * r.val = t.val % 8 * 256 + r.val; omega
  | ⟨3, _⟩ => show win0_0.index t (3 : Fin 4) * 64 + 1 * d.val = d.val; omega

/-- The keys block holds the head's keys. -/
theorem keysBlock_read (c : Dev nD) (t : Fin cfg0.N) (k : Fin 2048) (d : Fin 64) :
    iblk m c 1 t (ix4 (0 : Fin 1) (0 : Fin 1) k d) = V m c main_arg1 (rowsAt (pointBatch t) (pointHead t) k d) := by
  show V m c main_arg1 (((cfg0.win 1).blk t).view.emb (ix4 (0 : Fin 1) (0 : Fin 1) k d)) = _
  refine congrArg (V m c main_arg1) (funext fun a => Fin.ext ?_)
  obtain ⟨e0, e1, e2, e3⟩ := keysBlockIdx t
  match a with
  | ⟨0, _⟩ => show win0_1.index t (0 : Fin 4) * 1 + 1 * 0 = t.val / 128; omega
  | ⟨1, _⟩ => show win0_1.index t (1 : Fin 4) * 1 + 1 * 0 = t.val / 8 % 16; omega
  | ⟨2, _⟩ => show win0_1.index t (2 : Fin 4) * 2048 + 1 * k.val = k.val; omega
  | ⟨3, _⟩ => show win0_1.index t (3 : Fin 4) * 64 + 1 * d.val = d.val; omega

/-- The values block holds the head's values. -/
theorem valuesBlock_read (c : Dev nD) (t : Fin cfg0.N) (k : Fin 2048) (d : Fin 64) :
    iblk m c 2 t (ix4 (0 : Fin 1) (0 : Fin 1) k d) = V m c main_arg2 (rowsAt (pointBatch t) (pointHead t) k d) := by
  show V m c main_arg2 (((cfg0.win 2).blk t).view.emb (ix4 (0 : Fin 1) (0 : Fin 1) k d)) = _
  refine congrArg (V m c main_arg2) (funext fun a => Fin.ext ?_)
  obtain ⟨e0, e1, e2, e3⟩ := valuesBlockIdx t
  match a with
  | ⟨0, _⟩ => show win0_2.index t (0 : Fin 4) * 1 + 1 * 0 = t.val / 128; omega
  | ⟨1, _⟩ => show win0_2.index t (1 : Fin 4) * 1 + 1 * 0 = t.val / 8 % 16; omega
  | ⟨2, _⟩ => show win0_2.index t (2 : Fin 4) * 2048 + 1 * k.val = k.val; omega
  | ⟨3, _⟩ => show win0_2.index t (3 : Fin 4) * 64 + 1 * d.val = d.val; omega

/-- The mask block holds the tile's rows of the batch's table. -/
theorem maskBlock_read (c : Dev nD) (t : Fin cfg0.N) (r : Fin 256) (k : Fin 2048) :
    iblk m c 3 t (ix4 (0 : Fin 1) (0 : Fin 1) r k) = V m c main_arg3 (maskAt (pointBatch t) (tileRow t r) k) := by
  show V m c main_arg3 (((cfg0.win 3).blk t).view.emb (ix4 (0 : Fin 1) (0 : Fin 1) r k)) = _
  refine congrArg (V m c main_arg3) (funext fun a => Fin.ext ?_)
  obtain ⟨e0, e1, e2, e3⟩ := maskBlockIdx t
  match a with
  | ⟨0, _⟩ => show win0_3.index t (0 : Fin 4) * 1 + 1 * 0 = t.val / 128; omega
  | ⟨1, _⟩ => show win0_3.index t (1 : Fin 4) * 1 + 1 * 0 = 0; omega
  | ⟨2, _⟩ => show win0_3.index t (2 : Fin 4) * 256 + 1 * r.val = t.val % 8 * 256 + r.val; omega
  | ⟨3, _⟩ => show win0_3.index t (3 : Fin 4) * 2048 + 1 * k.val = k.val; omega

/-! ## Where each output block lands -/

/-- The weights block lands on the tile's rows of the head's weights. -/
theorem weightsBlock_emb (t : Fin cfg0.N) (r : Fin 256) (k : Fin 2048) :
    ((cfg0.win 4).blk t).view.emb (ix4 (0 : Fin 1) (0 : Fin 1) r k) = weightsAt (pointBatch t) (pointHead t) (tileRow t r) k := by
  refine funext fun a => Fin.ext ?_
  obtain ⟨e0, e1, e2, e3⟩ := weightsBlockIdx t
  match a with
  | ⟨0, _⟩ => show win0_4.index t (0 : Fin 4) * 1 + 1 * 0 = t.val / 128; omega
  | ⟨1, _⟩ => show win0_4.index t (1 : Fin 4) * 1 + 1 * 0 = t.val / 8 % 16; omega
  | ⟨2, _⟩ => show win0_4.index t (2 : Fin 4) * 256 + 1 * r.val = t.val % 8 * 256 + r.val; omega
  | ⟨3, _⟩ => show win0_4.index t (3 : Fin 4) * 2048 + 1 * k.val = k.val; omega

/-- The output block lands on the tile's rows of the head's output. -/
theorem outBlock_emb (t : Fin cfg0.N) (r : Fin 256) (d : Fin 64) :
    ((cfg0.win 5).blk t).view.emb (ix4 (0 : Fin 1) (0 : Fin 1) r d) = rowsAt (pointBatch t) (pointHead t) (tileRow t r) d := by
  refine funext fun a => Fin.ext ?_
  obtain ⟨e0, e1, e2, e3⟩ := outBlockIdx t
  match a with
  | ⟨0, _⟩ => show win0_5.index t (0 : Fin 4) * 1 + 1 * 0 = t.val / 128; omega
  | ⟨1, _⟩ => show win0_5.index t (1 : Fin 4) * 1 + 1 * 0 = t.val / 8 % 16; omega
  | ⟨2, _⟩ => show win0_5.index t (2 : Fin 4) * 256 + 1 * r.val = t.val % 8 * 256 + r.val; omega
  | ⟨3, _⟩ => show win0_5.index t (3 : Fin 4) * 64 + 1 * d.val = d.val; omega

/-! ## What each point writes back -/

theorem zeroOffsets : (![0, 0, 0, 0] : Fin 4 → Nat) = fun _ => 0 := funext fun a => by fin_cases a <;> rfl

/-- Point `t` writes back its tile of the specification's weights. -/
theorem flushedWeights (c : Dev nD) (t : Fin cfg0.N) :
    (dats m 0 c).flushed 4 t = ((cfg0.win 4).blk t).view.read (Elt Ideal)
      (attention (V m c main_arg0) (V m c main_arg1) (V m c main_arg3)) := by
  show (cfg0.win 4).cut (grid0.coords t) ((dats m 0 c).after 4 t) = _
  rw [after0_4]
  unfold out0_4
  rw [View.canon_unit_zero zeroOffsets]
  simp only [View.ld_unit_zero (S := S1x1x256x64) zeroOffsets, View.ld_unit_zero (S := S1x1x2048x64) zeroOffsets,
    View.ld_unit_zero (S := S1x1x256x2048) zeroOffsets]
  funext j
  refine storedWeights_eq (attention (V m c main_arg0) (V m c main_arg1) (V m c main_arg3))
    (iblk m c 0 t) (iblk m c 1 t) (iblk m c 3 t) ((cfg0.win 4).blk t).view.emb (fun r k => ?_) j
  rw [weightsBlock_emb]
  exact pointWeights (V m c main_arg0) (V m c main_arg1) (V m c main_arg3) (iblk m c 0 t) (iblk m c 1 t) (iblk m c 3 t)
    (pointBatch t) (pointHead t) (tileRow t) (queryBlock_read m c t) (keysBlock_read m c t) (maskBlock_read m c t) r k

/-- Point `t` writes back its tile of the specification's output. -/
theorem flushedOut (c : Dev nD) (t : Fin cfg0.N) :
    (dats m 0 c).flushed 5 t = ((cfg0.win 5).blk t).view.read (Elt Ideal)
      (attended (V m c main_arg0) (V m c main_arg1) (V m c main_arg2) (V m c main_arg3)) := by
  show (cfg0.win 5).cut (grid0.coords t) ((dats m 0 c).after 5 t) = _
  rw [after0_5]
  unfold out0_5
  rw [View.canon_unit_zero zeroOffsets]
  simp only [View.ld_unit_zero (S := S1x1x256x64) zeroOffsets, View.ld_unit_zero (S := S1x1x2048x64) zeroOffsets,
    View.ld_unit_zero (S := S1x1x256x2048) zeroOffsets]
  funext j
  refine storedOut_eq (attended (V m c main_arg0) (V m c main_arg1) (V m c main_arg2) (V m c main_arg3))
    (iblk m c 0 t) (iblk m c 1 t) (iblk m c 2 t) (iblk m c 3 t) ((cfg0.win 5).blk t).view.emb (fun r d => ?_) j
  rw [outBlock_emb]
  exact pointOut (V m c main_arg0) (V m c main_arg1) (V m c main_arg2) (V m c main_arg3)
    (iblk m c 0 t) (iblk m c 1 t) (iblk m c 2 t) (iblk m c 3 t)
    (pointBatch t) (pointHead t) (tileRow t) (queryBlock_read m c t) (keysBlock_read m c t) (valuesBlock_read m c t)
    (maskBlock_read m c t) r d

/-! ## The tiles cover the arrays -/

/-- An index of the weights array is in point `t`'s block iff each coordinate is in the block's range on its axis. -/
theorem mem_weightsBlock (t : Fin cfg0.N) (i : S4x16x2048x2048.Idx) :
    i ∈ ((cfg0.win 4).blk t).view.set ↔ ∀ a : Fin 4, win0_4.index t a * S1x1x256x2048.size a ≤ (i a).val
      ∧ (i a).val < win0_4.index t a * S1x1x256x2048.size a + S1x1x256x2048.size a := by
  show i ∈ ((View.whole main_v0_0).slice (win0_4.rect t)).set ↔ _
  rw [View.set_slice_whole, Rect.mem_set_unit]
  exact Iff.rfl

/-- The same for the output array. -/
theorem mem_outBlock (t : Fin cfg0.N) (i : S4x16x2048x64.Idx) :
    i ∈ ((cfg0.win 5).blk t).view.set ↔ ∀ a : Fin 4, win0_5.index t a * S1x1x256x64.size a ≤ (i a).val
      ∧ (i a).val < win0_5.index t a * S1x1x256x64.size a + S1x1x256x64.size a := by
  show i ∈ ((View.whole main_v0_1).slice (win0_5.rect t)).set ↔ _
  rw [View.set_slice_whole, Rect.mem_set_unit]
  exact Iff.rfl

/-- Every index of the weights array is in the block of the point numbered batch * 128 + head * 8 + row / 256. -/
theorem weights_cover (i : S4x16x2048x2048.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 2048 := (i 3).isLt
  obtain ⟨t, ht⟩ : ∃ t : Fin cfg0.N, t.val = (i 0).val * 128 + (i 1).val * 8 + (i 2).val / 256 :=
    ⟨⟨(i 0).val * 128 + (i 1).val * 8 + (i 2).val / 256, lt_of_lt_of_eq (by omega) N_0.symm⟩, rfl⟩
  refine ⟨t, flush0_4 t, ?_⟩
  rw [mem_weightsBlock]
  obtain ⟨e0, e1, e2, e3⟩ := weightsBlockIdx t
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 256 ≤ (i 2).val ∧ (i 2).val < win0_4.index t (2 : Fin 4) * 256 + 256; omega
  | ⟨3, _⟩ => show win0_4.index t (3 : Fin 4) * 2048 ≤ (i 3).val ∧ (i 3).val < win0_4.index t (3 : Fin 4) * 2048 + 2048; omega

/-- Every index of the output array is in the block of the point numbered batch * 128 + head * 8 + row / 256. -/
theorem out_cover (i : S4x16x2048x64.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, ht⟩ : ∃ t : Fin cfg0.N, t.val = (i 0).val * 128 + (i 1).val * 8 + (i 2).val / 256 :=
    ⟨⟨(i 0).val * 128 + (i 1).val * 8 + (i 2).val / 256, lt_of_lt_of_eq (by omega) N_0.symm⟩, rfl⟩
  refine ⟨t, flush0_5 t, ?_⟩
  rw [mem_outBlock]
  obtain ⟨e0, e1, e2, e3⟩ := outBlockIdx t
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 256 ≤ (i 2).val ∧ (i 2).val < win0_5.index t (2 : Fin 4) * 256 + 256; omega
  | ⟨3, _⟩ => show win0_5.index t (3 : Fin 4) * 64 ≤ (i 3).val ∧ (i 3).val < win0_5.index t (3 : Fin 4) * 64 + 64; omega

/-! ## The arrays after the run -/

/-- After the run the weights array is the specification's weights of the argument arrays. -/
theorem finalWeights (c : Dev nD) : (dats m 0 c).arrAt 4 cfg0.N
    = attention (m ((c : Thread nD τ).loc main_arg0)) (m ((c : Thread nD τ).loc main_arg1)) (m ((c : Thread nD τ).loc main_arg3)) :=
  (dats m 0 c).arrAt_eq_of_cover 4 (attention (V m c main_arg0) (V m c main_arg1) (V m c main_arg3))
    (fun t _ => flushedWeights m c t) weights_cover

/-- After the run the output array is the specification's output of the argument arrays. -/
theorem finalOut (c : Dev nD) : (dats m 0 c).arrAt 5 cfg0.N
    = attended (m ((c : Thread nD τ).loc main_arg0)) (m ((c : Thread nD τ).loc main_arg1)) (m ((c : Thread nD τ).loc main_arg2))
        (m ((c : Thread nD τ).loc main_arg3)) :=
  (dats m 0 c).arrAt_eq_of_cover 5 (attended (V m c main_arg0) (V m c main_arg1) (V m c main_arg2) (V m c main_arg3))
    (fun t _ => flushedOut m c t) out_cover

/-- The kernel's run: every weakly fair execution ends with the output array at `attended` and the weights array at
    `attention` of the argument arrays, which are unchanged. -/
theorem run : θ_run defs (onTc (τ := τ) (main (F := Ideal))) ⟨m, fun _ => 0, ρ⟩ fun r => ∀ c : Dev nD,
      r.2.mem ((c : Thread nD τ).loc main_v0_1)
        = attended (m ((c : Thread nD τ).loc main_arg0)) (m ((c : Thread nD τ).loc main_arg1)) (m ((c : Thread nD τ).loc main_arg2))
            (m ((c : Thread nD τ).loc main_arg3))
      ∧ r.2.mem ((c : Thread nD τ).loc main_v0_0)
        = attention (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).2.1.trans (finalOut m c), (h c).1.trans (finalWeights m c), (h c).2.2⟩)
    (Cert.KernelIdeal.Value.run_blocks m ρ)

end Cert.Attn

end
-- ==== Proof.lean ====
/-
  Sigmoid attention: a tiled kernel against the whole-array formula.

  Both programs take queries, keys and values [4,16,2048,64] and a mask [4,1,2048,2048] and return two arrays: the
  weights  logistic (if mask = 0 then -1e9 else sum over lanes of (Q/8) * K)  [4,16,2048,2048], and the weights applied
  to the values  [4,16,2048,64].  There is no normalisation across keys, so each block of 256 query rows is computed on
  its own from that block of Q, the head's K and V, and the matching rows of the batch's mask table: the kernel runs one
  grid point per (batch, head, block), 512 in all.  The reference computes the same two arrays whole.

  At the extended reals the two agree exactly.  The kernel multiplies a query entry by the word 0.125 where the
  reference divides it by the word 8.0: one value on every extended real.  The kernel's logistic and the reference's
  1 / (1 + exp (-x)) are one function.  The matrix products are the same finite sums, and narrowing to bf16 is the
  identity.  No law used needs finiteness, so the precondition is never opened.

  The modules: AttnScalars (the three float words and the two scalar laws), AttnSpec (the two arrays as functions of the
  arguments), AttnRef (the reference computes them), AttnBody (what the kernel body computes at one point, index by
  index), AttnGrid (which block each window holds at a point), AttnBlocks (each point writes its tile of the
  specification, the tiles cover both arrays, hence the kernel's run).  The three frames are the generated ones; the
  kernel's idealization rewrote nothing, so that conjunct is trivial.
-/
import proofs.«127028_j13460427505966_1_alg».proof.Defs
import proofs.«127028_j13460427505966_1_alg».proof.Proof.Gen.Kernel
import proofs.«127028_j13460427505966_1_alg».proof.Proof.Gen.Kernel.Skeleton
import proofs.«127028_j13460427505966_1_alg».proof.Proof.Gen.Kernel.Launch
import proofs.«127028_j13460427505966_1_alg».proof.Proof.Gen.Kernel.Points
import proofs.«127028_j13460427505966_1_alg».proof.Proof.Gen.Kernel.Frame
import proofs.«127028_j13460427505966_1_alg».proof.Proof.Gen.KernelIdeal
import proofs.«127028_j13460427505966_1_alg».proof.Proof.Gen.KernelIdeal.Skeleton
import proofs.«127028_j13460427505966_1_alg».proof.Proof.Gen.KernelIdeal.Launch
import proofs.«127028_j13460427505966_1_alg».proof.Proof.Gen.KernelIdeal.Points
import proofs.«127028_j13460427505966_1_alg».proof.Proof.Gen.KernelIdeal.Frame
import proofs.«127028_j13460427505966_1_alg».proof.Proof.Gen.ReferenceIdeal
import proofs.«127028_j13460427505966_1_alg».proof.Proof.Gen.Pre_finite_inputs
import proofs.«127028_j13460427505966_1_alg».proof.Proof.Gen.KernelIdeal.Value
import proofs.«127028_j13460427505966_1_alg».proof.Proof.Gen.ReferenceIdeal.Run
import proofs.«127028_j13460427505966_1_alg».proof.Proof.Gen.ReferenceIdeal.Read
import proofs.«127028_j13460427505966_1_alg».proof.Proof.AttnRef
import proofs.«127028_j13460427505966_1_alg».proof.Proof.AttnBlocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel at the extended reals rewrote no operation. -/
theorem preserves : Cert.preserves_Kernel_KernelIdeal := trivial

/-- From memories that agree on the arguments, the kernel ends with its output array at `attended` and its weights
    array at `attention` of the arguments (its run, tile by tile), and the reference ends with its two results at the
    same two functions of the same arguments (its run, stage by stage). -/
theorem algebraic : Cert.algebraic_KernelIdeal_ReferenceIdeal := by
  intro m ρ m' ρ' _ hagree
  refine ⟨_, _, Cert.Attn.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v12_eq _ _ _ _).trans (Cert.Attn.ref_attended _ _ _ _)
  · rw [(hagree c).1, (hagree c).2.1, (hagree c).2.2.2]
    exact (Cert.ReferenceIdeal.Read.val_main_v11_eq _ _ _).trans (Cert.Attn.ref_attention _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
